-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_arg6 : FVec F S256x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x256 : Shape := ⟨2, ![50000, 256]⟩
abbrev S5000x256 : Shape := ⟨2, ![5000, 256]⟩

abbrev nBuf : Space → Nat
  | .hbm => 95
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S50000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S650000x1, .f32⟩
  | .hbm, ⟨49, _⟩ => ⟨S50000x128, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x128, .f32⟩
  | .hbm, ⟨81, _⟩ => ⟨S650000x128, .f32⟩
  | .hbm, ⟨82, _⟩ => ⟨S650000x128, .f32⟩
  | .hbm, ⟨83, _⟩ => ⟨S_, .f32⟩
  | .hbm, ⟨84, _⟩ => ⟨S50000x128, .f32⟩
  | .hbm, ⟨85, _⟩ => ⟨S650000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x256, .f32⟩
  | .hbm, ⟨94, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x256 : Shape := ⟨2, ![50000, 256]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S1x600000, .i32⟩
  | 9 => ⟨S600000, .i32⟩
  | 10 => ⟨S1x600000, .i32⟩
  | 11 => ⟨S600000, .i32⟩
  | 12 => ⟨S50000x128, .f32⟩
  | 13 => ⟨S50000, .i32⟩
  | 14 => ⟨S650000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S650000, .i32⟩
  | 32 => ⟨S650000, .i1⟩
  | 33 => ⟨S_, .i32⟩
  | 34 => ⟨S650000, .i32⟩
  | 35 => ⟨S650000, .i32⟩
  | 36 => ⟨S650000, .i32⟩
  | 37 => ⟨S650000x1, .i32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000, .i32⟩
  | 73 => ⟨S650000, .i32⟩
  | 74 => ⟨S650000, .i32⟩
  | 75 => ⟨S_, .f32⟩
  | 76 => ⟨S650000, .f32⟩
  | 77 => ⟨S_, .f32⟩
  | 78 => ⟨S50000, .f32⟩
  | 79 => ⟨S650000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S650000, .i32⟩
  | 91 => ⟨S650000, .i1⟩
  | 92 => ⟨S_, .i32⟩
  | 93 => ⟨S650000, .i32⟩
  | 94 => ⟨S650000, .i32⟩
  | 95 => ⟨S650000, .i32⟩
  | 96 => ⟨S650000x1, .i32⟩
  | 97 => ⟨S650000, .f32⟩
  | 98 => ⟨S_, .i32⟩
  | 99 => ⟨S650000, .i32⟩
  | 100 => ⟨S650000, .i1⟩
  | 101 => ⟨S_, .i32⟩
  | 102 => ⟨S650000, .i32⟩
  | 103 => ⟨S650000, .i32⟩
  | 104 => ⟨S650000, .i32⟩
  | 105 => ⟨S650000x1, .i32⟩
  | 106 => ⟨S650000, .f32⟩
  | 107 => ⟨S650000, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x128, .f32⟩
  | 117 => ⟨S650000x1, .f32⟩
  | 118 => ⟨S650000x128, .f32⟩
  | 119 => ⟨S650000x128, .f32⟩
  | 120 => ⟨S_, .f32⟩
  | 121 => ⟨S50000x128, .f32⟩
  | 122 => ⟨S650000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x256, .f32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RunNamed.lean ====
/-
  Where the program's run leaves every buffer.

  Every weakly fair execution of the program terminates without a fault, and when it has, each unscoped buffer of each
  core holds what the last segment boundary's contents say: the contents after the third product region, which is a
  fold through the host operations and the three regions from the launch memory.  The result buffer and the eight
  argument arrays are among those buffers; what the fold holds at each is read elsewhere.
-/
import proofs.«167594_j48275432407773_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with every unscoped buffer of every core at the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c b hb)

/-- The result buffer is among the unscoped ones. -/
theorem result_unscoped : (Proc.devRef .tc main_v66 : DevRef τ sig) ∈ Pipeline.ucRefs τ sig := mem_uc main_v66 (by decide)

end Cert.KernelIdeal.RunNamed

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Region0.lean ====
/-
  Region 0 of the program, read as a value: the region is a row-blocked matrix product.

  The grid has ten points; point t stages rows 5000·t … 5000·t + 4999 of the left operand (all 128 columns), the whole
  128 × 128 right operand, and writes rows 5000·t … 5000·t + 4999 of the result.  The body's one store is the product
  of the two staged blocks into a zero accumulator, so at block coordinate (p, q) it holds the sum over k of
  left (5000·t + p, k) · right (k, q): block t of the whole product.  The ten blocks tile the 50000 rows, hence the
  result array after the region is the whole product of the two arrays as the region found them.
-/
import proofs.«167594_j48275432407773_1_alg».proof.Proof.Gen.KernelIdeal.Frame
import proofs.«167594_j48275432407773_1_alg».proof.Proof.LibPlainDot
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.Lib.PlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The stored block at a block coordinate: the product of the two staged blocks (rounding to bf16 is the identity on
    the extended reals). -/
theorem stored_apply (x : Vec Ideal S5000x128 .f32) (w : Vec Ideal S128x128 .f32) (j : S5000x128.Idx) :
    k0_pay1 x w j = mm (R := 5000) (K := 128) (C := 128) x w j := by
  unfold k0_pay1
  exact (matmul_zero_apply dot_S5000x128_S128x128_S5000x128_1_0_0_1_n_n rfl none _ _ j).trans rfl

/-- Where the three windows' blocks sit at point t: the left operand's and the result's at block row t, the right
    operand's always at the origin. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, read at (p, k), is the array at (5000·t + p, k). -/
theorem left_block (c : Dev nD) (t : Fin cfg0.N) (y : S5000x128.Idx) (i : S50000x128.Idx)
    (h0 : (i 0).val = t.val * 5000 + (y 0).val) (h1 : (i 1).val = (y 1).val) :
    iblk0 V c 0 t y = V c main_arg0 i := by
  obtain ⟨e0, e1, -, -, -, -⟩ := block_positions t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The right operand's block at any point is the whole array. -/
theorem right_block (c : Dev nD) (t : Fin cfg0.N) (y : S128x128.Idx) (i : S128x128.Idx)
    (h0 : (i 0).val = (y 0).val) (h1 : (i 1).val = (y 1).val) :
    iblk0 V c 1 t y = V c main_arg2 i := by
  obtain ⟨-, -, e2, e3, -, -⟩ := block_positions t
  show V c main_arg2 (((cfg0.win 1).blk t).view.emb y) = V c main_arg2 i
  refine congrArg (V c main_arg2) (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point t writes back is block t of the whole product. -/
theorem flushed_eq (c : Dev nD) (t : Fin cfg0.N) :
    (dat0 V c).flushed 2 t
      = ((cfg0.win 2).blk t).view.read (Elt Ideal) (mm (R := 50000) (K := 128) (C := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := block_positions t
  funext j
  show k0_pay1 (iblk0 V c 0 t) (iblk0 V c 1 t) j
    = mm (R := 50000) (K := 128) (C := 128) (V c main_arg0) (V c main_arg2) (((cfg0.win 2).blk t).view.emb j)
  refine (stored_apply (iblk0 V c 0 t) (iblk0 V c 1 t) j).trans ?_
  unfold mm
  refine Finset.sum_congr rfl fun k _ => ?_
  have hr0 : ((((cfg0.win 2).blk t).view.emb j) 0).val = t.val * 5000 + (j 0).val := by
    show win0_2.index t (0 : Fin 2) * 5000 + 1 * (j 0).val = _; omega
  have hr1 : ((((cfg0.win 2).blk t).view.emb j) 1).val = (j 1).val := by
    show win0_2.index t (1 : Fin 2) * 128 + 1 * (j 1).val = _; omega
  rw [left_block V c t (rowIdx j k) (rowIdx (((cfg0.win 2).blk t).view.emb j) k) hr0 rfl,
    right_block V c t (colIdx j k) (colIdx (((cfg0.win 2).blk t).view.emb j) k) rfl hr1]

/-- An index of the result array lies in point t's block iff its row is among the block's 5000 rows. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Every index of the result array is in the block of the point row / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨-, -, -, -, e4, e5⟩ := block_positions t
  have ht : t.val = (i 0).val / 5000 := rfl
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region: the whole product of the two operand arrays as the region found them. -/
theorem result (c : Dev nD) :
    (dat0 V c).arrAt 2 cfg0.N = mm (R := 50000) (K := 128) (C := 128) (V c main_arg0) (V c main_arg2) :=
  (dat0 V c).arrAt_eq_of_cover 2 _ (fun t _ => flushed_eq V c t) covered

end Cert.KernelIdeal.Region0

end
-- ==== Proof.Region1.lean ====
/-
  Region 1 of the program, read as a value: the region is a row-blocked matrix product.

  The grid has ten points; point t stages rows 5000·t … 5000·t + 4999 of the left operand (all 128 columns), the whole
  128 × 128 right operand, and writes rows 5000·t … 5000·t + 4999 of the result.  The body's one store is the product
  of the two staged blocks into a zero accumulator, so at block coordinate (p, q) it holds the sum over k of
  left (5000·t + p, k) · right (k, q): block t of the whole product.  The ten blocks tile the 50000 rows, hence the
  result array after the region is the whole product of the two arrays as the region found them.
-/
import proofs.«167594_j48275432407773_1_alg».proof.Proof.Gen.KernelIdeal.Frame
import proofs.«167594_j48275432407773_1_alg».proof.Proof.LibPlainDot
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.Pipeline (Dat)
open Cert.Lib.PlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The stored block at a block coordinate: the product of the two staged blocks (rounding to bf16 is the identity on
    the extended reals, and so is the cast of the left block to its own shape). -/
theorem stored_apply (x : Vec Ideal S5000x128 .f32) (w : Vec Ideal S128x128 .f32) (j : S5000x128.Idx) :
    k1_pay1 x w j = mm (R := 5000) (K := 128) (C := 128) x w j := by
  unfold k1_pay1
  refine (matmul_zero_apply dot_S5000x128_S128x128_S5000x128_1_0_0_1_n_n rfl none _ _ j).trans ?_
  show mm (shapeCast S5000x128 x shapeCasts_S5000x128_S5000x128) w j = mm x w j
  rw [shapeCast_self]

/-- Where the three windows' blocks sit at point t: the left operand's and the result's at block row t, the right
    operand's always at the origin. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, read at (p, k), is the array at (5000·t + p, k). -/
theorem left_block (c : Dev nD) (t : Fin cfg1.N) (y : S5000x128.Idx) (i : S50000x128.Idx)
    (h0 : (i 0).val = t.val * 5000 + (y 0).val) (h1 : (i 1).val = (y 1).val) :
    iblk1 V c 0 t y = V c main_v47 i := by
  obtain ⟨e0, e1, -, -, -, -⟩ := block_positions t
  show V c main_v47 (((cfg1.win 0).blk t).view.emb y) = V c main_v47 i
  refine congrArg (V c main_v47) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The right operand's block at any point is the whole array. -/
theorem right_block (c : Dev nD) (t : Fin cfg1.N) (y : S128x128.Idx) (i : S128x128.Idx)
    (h0 : (i 0).val = (y 0).val) (h1 : (i 1).val = (y 1).val) :
    iblk1 V c 1 t y = V c main_arg4 i := by
  obtain ⟨-, -, e2, e3, -, -⟩ := block_positions t
  show V c main_arg4 (((cfg1.win 1).blk t).view.emb y) = V c main_arg4 i
  refine congrArg (V c main_arg4) (funext fun a => Fin.ext ?_)
  match a with
  | ⟨0, _⟩ => show win1_1.index t (0 : Fin 2) * 128 + 1 * (y 0).val = (i 0).val; omega
  | ⟨1, _⟩ => show win1_1.index t (1 : Fin 2) * 128 + 1 * (y 1).val = (i 1).val; omega

/-- What point t writes back is block t of the whole product. -/
theorem flushed_eq (c : Dev nD) (t : Fin cfg1.N) :
    (dat1 V c).flushed 2 t
      = ((cfg1.win 2).blk t).view.read (Elt Ideal) (mm (R := 50000) (K := 128) (C := 128) (V c main_v47) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨-, -, -, -, e4, e5⟩ := block_positions t
  funext j
  show k1_pay1 (iblk1 V c 0 t) (iblk1 V c 1 t) j
    = mm (R := 50000) (K := 128) (C := 128) (V c main_v47) (V c main_arg4) (((cfg1.win 2).blk t).view.emb j)
  refine (stored_apply (iblk1 V c 0 t) (iblk1 V c 1 t) j).trans ?_
  unfold mm
  refine Finset.sum_congr rfl fun k _ => ?_
  have hr0 : ((((cfg1.win 2).blk t).view.emb j) 0).val = t.val * 5000 + (j 0).val := by
    show win1_2.index t (0 : Fin 2) * 5000 + 1 * (j 0).val = _; omega
  have hr1 : ((((cfg1.win 2).blk t).view.emb j) 1).val = (j 1).val := by
    show win1_2.index t (1 : Fin 2) * 128 + 1 * (j 1).val = _; omega
  rw [left_block V c t (rowIdx j k) (rowIdx (((cfg1.win 2).blk t).view.emb j) k) hr0 rfl,
    right_block V c t (colIdx j k) (colIdx (((cfg1.win 2).blk t).view.emb j) k) rfl hr1]

/-- An index of the result array lies in point t's block iff its row is among the block's 5000 rows. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v48).slice (win1_2.rect t)).set ↔ _
  rw [View.set_slice_whole, Rect.mem_set_unit]
  exact Iff.rfl

/-- Every index of the result array is in the block of the point row / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨-, -, -, -, e4, e5⟩ := block_positions t
  have ht : t.val = (i 0).val / 5000 := rfl
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The result array after the region: the whole product of the two operand arrays as the region found them. -/
theorem result (c : Dev nD) :
    (dat1 V c).arrAt 2 cfg1.N = mm (R := 50000) (K := 128) (C := 128) (V c main_v47) (V c main_arg4) :=
  (dat1 V c).arrAt_eq_of_cover 2 _ (fun t _ => flushed_eq V c t) covered

end Cert.KernelIdeal.Region1

end
-- ==== Proof.Region2.lean ====
/-
  The last region of the program, read as a value: a row-blocked matrix product with a bias row added.

  The grid has ten points; point t stages rows 5000·t … 5000·t + 4999 of the left operand (all 256 columns), the whole
  256 × 128 right operand and the whole bias vector, and writes rows 5000·t … 5000·t + 4999 of the result.  The body's
  one store is the product of the two staged blocks into a zero accumulator plus the bias spread over the rows, so at
  block coordinate (p, q) it holds the sum over k of left (5000·t + p, k) · right (k, q), plus bias q.  The ten blocks
  tile the 50000 rows, hence the result array after the region is that function of the three arrays as the region
  found them.
-/
import proofs.«167594_j48275432407773_1_alg».proof.Proof.Gen.KernelIdeal.Frame
import proofs.«167594_j48275432407773_1_alg».proof.Proof.LibPlainDot
import Idealize.ShloMosaic.Lib.Pipeline.Value
import Idealize.ShloMosaic.Lib.ValueLayout

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.PlainDot

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-- A product of an [R, 256] array and a [256, 128] array with a 128-vector added to every row. -/
def productPlusRow {R : Nat} (x : (⟨2, ![R, 256]⟩ : Shape).Idx → EReal) (w : (⟨2, ![256, 128]⟩ : Shape).Idx → EReal)
    (b : (⟨1, ![128]⟩ : Shape).Idx → EReal) : (⟨2, ![R, 128]⟩ : Shape).Idx → EReal :=
  fun i => mm (R := R) (K := 256) (C := 128) x w i + b (ix1 (⟨(i 1).val, (i 1).isLt⟩ : Fin 128))

/-- The stored block at a block coordinate: the product of the two staged blocks plus the bias at the column
    (rounding to bf16 and the cast of the left block to its own shape are identities on the extended reals). -/
theorem stored_apply (x : Vec Ideal S5000x256 .f32) (w : Vec Ideal S256x128 .f32) (b : Vec Ideal S128 .f32)
    (p : Fin 5000) (q : Fin 128) :
    k2_pay1 x w b (ix2 p q) = productPlusRow (R := 5000) x w b (ix2 p q) := by
  unfold k2_pay1 productPlusRow
  dsimp only
  refine (ValueIdx.addf_apply _ _ _).trans ?_
  refine congrArg₂ (· + ·) ?_ ?_
  · refine (matmul_zero_apply dot_S5000x256_S256x128_S5000x128_1_0_0_1_n_n rfl none _ _ (ix2 p q)).trans ?_
    show mm (shapeCast S5000x256 x shapeCasts_S5000x256_S5000x256) w (ix2 p q) = mm x w (ix2 p q)
    rw [shapeCast_self]
  · exact (broadcastTo_1b_ab_apply _ _ p q).trans (shapeCast_a_1a_apply b _ 0 q)

/-- Where the four windows' blocks sit at point t: the left operand's and the result's at block row t, the right
    operand's and the bias's always at the origin. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The left operand's block at point t, read at (p, k), is the array at (5000·t + p, k). -/
theorem left_block (c : Dev nD) (t : Fin cfg2.N) (y : S5000x256.Idx) (i : S50000x256.Idx)
    (h0 : (i 0).val = t.val * 5000 + (y 0).val) (h1 : (i 1).val = (y 1).val) :
    iblk2 V c 0 t y = V c main_v65 i := by
  obtain ⟨e0, e1, -, -, -, -, -⟩ := block_positions t
  show V c main_v65 (((cfg2.win 0).blk t).view.emb y) = V c main_v65 i
  refine congrArg (V c main_v65) (funext fun a => Fin.ext ?_)
  match a with
  | ⟨0, _⟩ => show win2_0.index t (0 : Fin 2) * 5000 + 1 * (y 0).val = (i 0).val; omega
  | ⟨1, _⟩ => show win2_0.index t (1 : Fin 2) * 256 + 1 * (y 1).val = (i 1).val; omega

/-- The right operand's block at any point is the whole array. -/
theorem right_block (c : Dev nD) (t : Fin cfg2.N) (y : S256x128.Idx) (i : S256x128.Idx)
    (h0 : (i 0).val = (y 0).val) (h1 : (i 1).val = (y 1).val) :
    iblk2 V c 1 t y = V c main_arg6 i := by
  obtain ⟨-, -, e2, e3, -, -, -⟩ := block_positions t
  show V c main_arg6 (((cfg2.win 1).blk t).view.emb y) = V c main_arg6 i
  refine congrArg (V c main_arg6) (funext fun a => Fin.ext ?_)
  match a with
  | ⟨0, _⟩ => show win2_1.index t (0 : Fin 2) * 256 + 1 * (y 0).val = (i 0).val; omega
  | ⟨1, _⟩ => show win2_1.index t (1 : Fin 2) * 128 + 1 * (y 1).val = (i 1).val; omega

/-- The bias's block at any point is the whole vector. -/
theorem bias_block (c : Dev nD) (t : Fin cfg2.N) (y : S128.Idx) (i : S128.Idx) (h0 : (i 0).val = (y 0).val) :
    iblk2 V c 2 t y = V c main_arg7 i := by
  obtain ⟨-, -, -, -, e4, -, -⟩ := block_positions t
  show V c main_arg7 (((cfg2.win 2).blk t).view.emb y) = V c main_arg7 i
  refine congrArg (V c main_arg7) (funext fun a => Fin.ext ?_)
  match a with
  | ⟨0, _⟩ => show win2_2.index t (0 : Fin 1) * 128 + 1 * (y 0).val = (i 0).val; omega

/-- What point t writes back is block t of the whole product plus the bias row. -/
theorem flushed_eq (c : Dev nD) (t : Fin cfg2.N) :
    (dat2 V c).flushed 3 t
      = ((cfg2.win 3).blk t).view.read (Elt Ideal)
          (productPlusRow (R := 50000) (V c main_v65) (V c main_arg6) (V c main_arg7)) := by
  show (cfg2.win 3).cut (grid2.coords t) ((dat2 V c).after 3 t) = _
  rw [after2_3]
  unfold out2_3
  rw [View.canon_unit_zero zero_offsets]
  simp only [View.ld_unit_zero (S := S5000x256) zero_offsets, View.ld_unit_zero (S := S256x128) zero_offsets,
    View.ld_unit_zero (S := S128) zero_offset]
  obtain ⟨-, -, -, -, -, e5, e6⟩ := block_positions t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = productPlusRow (R := 50000) (V c main_v65) (V c main_arg6) (V c main_arg7) (((cfg2.win 3).blk t).view.emb (ix2 p q))
  refine (stored_apply (iblk2 V c 0 t) (iblk2 V c 1 t) (iblk2 V c 2 t) p q).trans ?_
  have hr0 : ((((cfg2.win 3).blk t).view.emb (ix2 p q)) 0).val = t.val * 5000 + p.val := by
    show win2_3.index t (0 : Fin 2) * 5000 + 1 * p.val = _; omega
  have hr1 : ((((cfg2.win 3).blk t).view.emb (ix2 p q)) 1).val = q.val := by
    show win2_3.index t (1 : Fin 2) * 128 + 1 * q.val = _; omega
  unfold productPlusRow mm
  refine congrArg₂ (· + ·) (Finset.sum_congr rfl fun k _ => ?_) ?_
  · rw [left_block V c t (rowIdx (ix2 p q) k) (rowIdx (((cfg2.win 3).blk t).view.emb (ix2 p q)) k) hr0 rfl,
      right_block V c t (colIdx (ix2 p q) k) (colIdx (((cfg2.win 3).blk t).view.emb (ix2 p q)) k) rfl hr1]
  · exact bias_block V c t _ _ hr1

/-- An index of the result array lies in point t's block iff its row is among the block's 5000 rows. -/
theorem mem_block (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v66).slice (win2_3.rect t)).set ↔ _
  rw [View.set_slice_whole, Rect.mem_set_unit]
  exact Iff.rfl

/-- Every index of the result array is in the block of the point row / 5000. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨-, -, -, -, -, e5, e6⟩ := block_positions t
  have ht : t.val = (i 0).val / 5000 := rfl
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- The result array after the region: the whole product plus the bias row, of the three arrays as the region found
    them. -/
theorem result (c : Dev nD) :
    (dat2 V c).arrAt 3 cfg2.N = productPlusRow (R := 50000) (V c main_v65) (V c main_arg6) (V c main_arg7) :=
  (dat2 V c).arrAt_eq_of_cover 3 _ (fun t _ => flushed_eq V c t) covered

end Cert.KernelIdeal.Region2

end
-- ==== Proof.RefNames.lean ====
/-
  The reference computes the edge lists and the per-edge coefficient once per layer, by the same operations on the
  same edge list; the second computation's stages are the first's.
-/
import proofs.«167594_j48275432407773_1_alg».proof.Proof.RefRead

noncomputable section

namespace Cert.ReferenceIdeal.Names

open Cert.ReferenceIdeal Cert.ReferenceIdeal.ReadP Idealize.ShloMosaic

variable {F : FTy → Type} [FloatOps F] (e : (⟨S2x600000, .i32⟩ : BufTy).Contents (Elt F))

/-- The sources of the edges, self loops appended. -/
theorem rows_again : val_main_v50 (F := F) e = val_main_v6 (F := F) e := rfl
/-- The destinations of the edges, self loops appended. -/
theorem cols_again : val_main_v51 (F := F) e = val_main_v7 (F := F) e := rfl
/-- Each node's degree. -/
theorem degree_again : val_main_v55 (F := F) e = val_main_v11 (F := F) e := rfl
/-- 1/sqrt(degree) where positive, zero elsewhere. -/
theorem dinv_again : val_main_v59 (F := F) e = val_main_v15 (F := F) e := by
  unfold val_main_v59 val_main_v15 val_main_v57 val_main_v13 val_main_v58 val_main_v14
  rw [degree_again]
  rfl
/-- The coefficient at the source, the coefficient at the destination. -/
theorem at_source_again : val_main_v66 (F := F) e = val_main_v22 (F := F) e := by
  unfold val_main_v66 val_main_v22
  rw [dinv_again]
  rfl
theorem at_destination_again : val_main_v73 (F := F) e = val_main_v29 (F := F) e := by
  unfold val_main_v73 val_main_v29
  rw [dinv_again]
  rfl
/-- The per-edge coefficient, as a column. -/
theorem coef_again : val_main_v82 (F := F) e = val_main_v38 (F := F) e := by
  unfold val_main_v82 val_main_v38 val_main_v74 val_main_v30
  rw [at_source_again, at_destination_again]

end Cert.ReferenceIdeal.Names

end
-- ==== Proof.Fold.lean ====
/-
  The program's buffers, followed from the launch to the return.

  Between its three row-blocked matrix products the program runs host operations only: the edge list with a self loop
  per node, each node's degree and inverse square root, the per-edge coefficient, and for each of the two graph
  layers a gather of the projected rows, the scaling by the coefficient, the scatter-add over destination nodes, the
  bias and the clamp at zero.  The reference applies the very same operations and differs only in computing each
  product by one `dot_general` (and in computing the coefficient once per layer); so every buffer is named here by the
  reference's own stage function of the arguments, and what is proved along the way is: each product region finds its
  operands at those stages and leaves the whole product, which is the reference's `dot_general` of them.
-/
import proofs.«167594_j48275432407773_1_alg».proof.Proof.Region0
import proofs.«167594_j48275432407773_1_alg».proof.Proof.Region1
import proofs.«167594_j48275432407773_1_alg».proof.Proof.Region2
import proofs.«167594_j48275432407773_1_alg».proof.Proof.RefNames
import Idealize.ShloMosaic.Lib.StableHlo.Run

noncomputable section

namespace Cert.KernelIdeal.Fold

open Cert.KernelIdeal Cert.KernelIdeal.Gen Idealize.ShloMosaic Idealize.ShloMosaic.TcCoe Idealize.SL.Sem
open Idealize.ShloMosaic.StableHlo
open Cert.Lib.PlainDot
open Cert.ReferenceIdeal.ReadP

variable (m : (ℓ : Loc nD τ sig) → Buf (Elt Ideal) ℓ) (ρ : Dev nD → PrngReg) (c : Dev nD)

/-- The eight argument arrays as launched: node features, edge list, and the three layers' weights and biases. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)

/-! ## The three outlined functions, at any contents

Each is three operations whose values pass through typed references; read here once, at contents that are a
variable, so that nothing larger than the three operations is ever compared through them. -/

/-- `where(mask, a, 0)`: the inverse square roots where the degree is positive, zero elsewhere. -/
theorem where_reads (V : Valuation τ sig (Elt Ideal)) :
    StableHlo.after hostOps0_1 V (Proc.devRef .tc main_v14)
      = select (V (Proc.devRef .tc main_v12) : (⟨S50000, .i1⟩ : BufTy).Contents (Elt Ideal))
          (V (Proc.devRef .tc main_v13) : (⟨S50000, .f32⟩ : BufTy).Contents (Elt Ideal))
          (broadcastInDim S50000 ![] bcast_S_S50000
            (id (V (Proc.devRef .tc main_cst_2) : (⟨S_, .f32⟩ : BufTy).Contents (Elt Ideal)))) := by
  dsimp only [hostOps0_1]; after_results_simp <;> rfl

/-- The first layer's clamp at zero. -/
theorem relu1_reads (V : Valuation τ sig (Elt Ideal)) :
    StableHlo.after hostOps1_1 V (Proc.devRef .tc main_v47)
      = maximumf (F := Ideal) (V (Proc.devRef .tc main_v46) : (⟨S50000x128, .f32⟩ : BufTy).Contents (Elt Ideal))
          (broadcastInDim S50000x128 ![] bcast_S_S50000x128 (constant (F := Ideal) S_ .f32 0x00000000#32)) := by
  dsimp only [hostOps1_1]; after_results_simp <;> rfl

/-- The second layer's clamp at zero. -/
theorem relu2_reads (V : Valuation τ sig (Elt Ideal)) :
    StableHlo.after hostOps2_1 V (Proc.devRef .tc main_v64)
      = maximumf (F := Ideal) (V (Proc.devRef .tc main_v63) : (⟨S50000x128, .f32⟩ : BufTy).Contents (Elt Ideal))
          (broadcastInDim S50000x128 ![] bcast_S_S50000x128 (constant (F := Ideal) S_ .f32 0x00000000#32)) := by
  dsimp only [hostOps2_1]; after_results_simp <;> rfl

/-! ## Before the first product -/

/-- Reads one buffer after the first stretch of host operations, from the launch memory. -/
macro "read_first_stretch" : tactic =>
  `(tactic| (dsimp only [W1, hostOps0]; after_results_simp))
/-- Reads, after the host operations before the first product, a buffer none of the outlined function writes. -/
macro "read_before_first" : tactic =>
  `(tactic| (dsimp only [W3, W2, W1, hostOps0, hostOps0_1, hostOps0_2]; after_results_simp))

theorem W3_arg0 : W3 m ρ c (Proc.devRef .tc main_arg0) = a0 m c := by read_before_first <;> rfl
theorem W3_arg2 : W3 m ρ c (Proc.devRef .tc main_arg2) = a2 m c := by read_before_first <;> rfl
theorem W3_arg3 : W3 m ρ c (Proc.devRef .tc main_arg3) = a3 m c := by read_before_first <;> rfl
theorem W3_arg4 : W3 m ρ c (Proc.devRef .tc main_arg4) = a4 m c := by read_before_first <;> rfl
theorem W3_arg5 : W3 m ρ c (Proc.devRef .tc main_arg5) = a5 m c := by read_before_first <;> rfl
theorem W3_arg6 : W3 m ρ c (Proc.devRef .tc main_arg6) = a6 m c := by read_before_first <;> rfl
theorem W3_arg7 : W3 m ρ c (Proc.devRef .tc main_arg7) = a7 m c := by read_before_first <;> rfl

/-- The source node of every edge, self loops appended. -/
theorem W3_rows : W3 m ρ c (Proc.devRef .tc main_v5) = val_main_v6 (F := Ideal) (a1 m c) := by read_before_first <;> rfl
/-- The destination node of every edge, self loops appended. -/
theorem W3_cols : W3 m ρ c (Proc.devRef .tc main_v6) = val_main_v7 (F := Ideal) (a1 m c) := by read_before_first <;> rfl

theorem W2_rows : W2 m ρ c (Proc.devRef .tc main_v5) = val_main_v6 (F := Ideal) (a1 m c) := by
  dsimp only [W2, W1, hostOps0, hostOps0_1]; after_results_simp <;> rfl
theorem W2_cols : W2 m ρ c (Proc.devRef .tc main_v6) = val_main_v7 (F := Ideal) (a1 m c) := by
  dsimp only [W2, W1, hostOps0, hostOps0_1]; after_results_simp <;> rfl

/-- Where a node's degree is positive. -/
theorem W1_positive : W1 m ρ c (Proc.devRef .tc main_v12) = val_main_v13 (F := Ideal) (a1 m c) := by read_first_stretch <;> rfl
/-- The inverse square root of every node's degree. -/
theorem W1_rsqrt : W1 m ρ c (Proc.devRef .tc main_v13) = val_main_v14 (F := Ideal) (a1 m c) := by read_first_stretch <;> rfl
theorem W1_zero : W1 m ρ c (Proc.devRef .tc main_cst_2) = val_main_cst_2 (F := Ideal) := by read_first_stretch <;> rfl

/-- 1/sqrt(degree) where the degree is positive, zero elsewhere. -/
theorem W2_dinv : W2 m ρ c (Proc.devRef .tc main_v14) = val_main_v15 (F := Ideal) (a1 m c) := by
  dsimp only [W2]
  rw [where_reads, W1_positive m ρ c, W1_rsqrt m ρ c, W1_zero m ρ c]
  rfl

/-- The per-edge coefficient 1/sqrt(deg source) · 1/sqrt(deg destination), as a column. -/
theorem W3_coef : W3 m ρ c (Proc.devRef .tc main_v30) = val_main_v38 (F := Ideal) (a1 m c) := by
  have h5 := W2_rows m ρ c
  have h6 := W2_cols m ρ c
  have h14 := W2_dinv m ρ c
  dsimp only [W3]
  generalize W2 m ρ c = V at h5 h6 h14 ⊢
  dsimp only [hostOps0_2]; after_results_simp
  rw [h5, h6, h14]
  rfl

/-! ## The first product and the first layer -/

/-- The reference's `dot_general` of a 128-column array and a 128 × 128 matrix is the plain sum over k. -/
theorem ref_dot128 (x : FVec Ideal ⟨2, ![50000, 128]⟩ .f32) (w : FVec Ideal ⟨2, ![128, 128]⟩ .f32) :
    Host.dotGeneral Cert.ReferenceIdeal.dot_S50000x128_S128x128_S50000x128_1_0_0_1_n_n none x w
      = mm (R := 50000) (K := 128) (C := 128) x w :=
  funext fun j => dotGeneral_apply _ rfl none .single x w j

/-- The first product region leaves the node features times the first weight matrix. -/
theorem W4_h1 : W4 m ρ c (Proc.devRef .tc main_v31) = val_main_v4 (F := Ideal) (a0 m c) (a2 m c) :=
  (W4_arr m ρ c 2).trans ((Region0.result (V3 m ρ) c).trans
    ((congrArg₂ (mm (R := 50000) (K := 128) (C := 128)) (W3_arg0 m ρ c) (W3_arg2 m ρ c)).trans (ref_dot128 _ _).symm))

theorem W4_rows : W4 m ρ c (Proc.devRef .tc main_v5) = val_main_v6 (F := Ideal) (a1 m c) :=
  (W4_of_ne m ρ c main_v5 (by decide)).trans (W3_rows m ρ c)
theorem W4_cols : W4 m ρ c (Proc.devRef .tc main_v6) = val_main_v7 (F := Ideal) (a1 m c) :=
  (W4_of_ne m ρ c main_v6 (by decide)).trans (W3_cols m ρ c)
theorem W4_coef : W4 m ρ c (Proc.devRef .tc main_v30) = val_main_v38 (F := Ideal) (a1 m c) :=
  (W4_of_ne m ρ c main_v30 (by decide)).trans (W3_coef m ρ c)
theorem W4_arg3 : W4 m ρ c (Proc.devRef .tc main_arg3) = a3 m c :=
  (W4_of_ne m ρ c main_arg3 (by decide)).trans (W3_arg3 m ρ c)
theorem W4_arg4 : W4 m ρ c (Proc.devRef .tc main_arg4) = a4 m c :=
  (W4_of_ne m ρ c main_arg4 (by decide)).trans (W3_arg4 m ρ c)
theorem W4_arg5 : W4 m ρ c (Proc.devRef .tc main_arg5) = a5 m c :=
  (W4_of_ne m ρ c main_arg5 (by decide)).trans (W3_arg5 m ρ c)
theorem W4_arg6 : W4 m ρ c (Proc.devRef .tc main_arg6) = a6 m c :=
  (W4_of_ne m ρ c main_arg6 (by decide)).trans (W3_arg6 m ρ c)
theorem W4_arg7 : W4 m ρ c (Proc.devRef .tc main_arg7) = a7 m c :=
  (W4_of_ne m ρ c main_arg7 (by decide)).trans (W3_arg7 m ρ c)

/-- The first layer before its clamp: gathered rows scaled by the coefficient, summed over each destination node's
    edges, plus the bias. -/
theorem W5_pre1 : W5 m ρ c (Proc.devRef .tc main_v46) = val_main_v46 (F := Ideal) (a0 m c) (a1 m c) (a2 m c) (a3 m c) := by
  have h31 := W4_h1 m ρ c
  have h5 := W4_rows m ρ c
  have h6 := W4_cols m ρ c
  have h30 := W4_coef m ρ c
  have h3 := W4_arg3 m ρ c
  dsimp only [W5]
  generalize W4 m ρ c = V at h31 h5 h6 h30 h3 ⊢
  dsimp only [hostOps1]; after_results_simp
  rw [h31, h5, h6, h30, h3]
  rfl

/-- The first layer's output. -/
theorem W6_x1 : W6 m ρ c (Proc.devRef .tc main_v47) = val_main_v47 (F := Ideal) (a0 m c) (a1 m c) (a2 m c) (a3 m c) := by
  dsimp only [W6]
  rw [relu1_reads, W5_pre1 m ρ c]
  rfl

/-- Reads, after the host operations between the first two products, a buffer they do not write. -/
macro "kept_between" : tactic =>
  `(tactic| (dsimp only [W6, W5, hostOps1, hostOps1_1]; after_results_simp))

theorem W6_rows : W6 m ρ c (Proc.devRef .tc main_v5) = val_main_v6 (F := Ideal) (a1 m c) :=
  (by kept_between : W6 m ρ c (Proc.devRef .tc main_v5) = W4 m ρ c (Proc.devRef .tc main_v5)).trans (W4_rows m ρ c)
theorem W6_cols : W6 m ρ c (Proc.devRef .tc main_v6) = val_main_v7 (F := Ideal) (a1 m c) :=
  (by kept_between : W6 m ρ c (Proc.devRef .tc main_v6) = W4 m ρ c (Proc.devRef .tc main_v6)).trans (W4_cols m ρ c)
theorem W6_coef : W6 m ρ c (Proc.devRef .tc main_v30) = val_main_v38 (F := Ideal) (a1 m c) :=
  (by kept_between : W6 m ρ c (Proc.devRef .tc main_v30) = W4 m ρ c (Proc.devRef .tc main_v30)).trans (W4_coef m ρ c)
theorem W6_arg4 : W6 m ρ c (Proc.devRef .tc main_arg4) = a4 m c :=
  (by kept_between : W6 m ρ c (Proc.devRef .tc main_arg4) = W4 m ρ c (Proc.devRef .tc main_arg4)).trans (W4_arg4 m ρ c)
theorem W6_arg5 : W6 m ρ c (Proc.devRef .tc main_arg5) = a5 m c :=
  (by kept_between : W6 m ρ c (Proc.devRef .tc main_arg5) = W4 m ρ c (Proc.devRef .tc main_arg5)).trans (W4_arg5 m ρ c)
theorem W6_arg6 : W6 m ρ c (Proc.devRef .tc main_arg6) = a6 m c :=
  (by kept_between : W6 m ρ c (Proc.devRef .tc main_arg6) = W4 m ρ c (Proc.devRef .tc main_arg6)).trans (W4_arg6 m ρ c)
theorem W6_arg7 : W6 m ρ c (Proc.devRef .tc main_arg7) = a7 m c :=
  (by kept_between : W6 m ρ c (Proc.devRef .tc main_arg7) = W4 m ρ c (Proc.devRef .tc main_arg7)).trans (W4_arg7 m ρ c)

/-! ## The second product and the second layer -/

/-- The second product region leaves the first layer's output times the second weight matrix. -/
theorem W7_h2 : W7 m ρ c (Proc.devRef .tc main_v48) = val_main_v48 (F := Ideal) (a0 m c) (a1 m c) (a2 m c) (a3 m c) (a4 m c) :=
  (W7_arr m ρ c 2).trans ((Region1.result (V6 m ρ) c).trans
    ((congrArg₂ (mm (R := 50000) (K := 128) (C := 128)) (W6_x1 m ρ c) (W6_arg4 m ρ c)).trans (ref_dot128 _ _).symm))

/-- The second product region reads the first layer's output and never writes it. -/
theorem W7_x1 : W7 m ρ c (Proc.devRef .tc main_v47) = val_main_v47 (F := Ideal) (a0 m c) (a1 m c) (a2 m c) (a3 m c) :=
  (W7_arr m ρ c 0).trans (((dat1 (V6 m ρ) c).arrAt_in 0 rfl _).trans ((A_eq1 (V6 m ρ) c 0).trans (W6_x1 m ρ c)))

theorem W7_rows : W7 m ρ c (Proc.devRef .tc main_v5) = val_main_v50 (F := Ideal) (a1 m c) :=
  (W7_of_ne m ρ c main_v5 (by decide)).trans ((W6_rows m ρ c).trans (Cert.ReferenceIdeal.Names.rows_again _).symm)
theorem W7_cols : W7 m ρ c (Proc.devRef .tc main_v6) = val_main_v51 (F := Ideal) (a1 m c) :=
  (W7_of_ne m ρ c main_v6 (by decide)).trans ((W6_cols m ρ c).trans (Cert.ReferenceIdeal.Names.cols_again _).symm)
theorem W7_coef : W7 m ρ c (Proc.devRef .tc main_v30) = val_main_v82 (F := Ideal) (a1 m c) :=
  (W7_of_ne m ρ c main_v30 (by decide)).trans ((W6_coef m ρ c).trans (Cert.ReferenceIdeal.Names.coef_again _).symm)
theorem W7_arg5 : W7 m ρ c (Proc.devRef .tc main_arg5) = a5 m c :=
  (W7_of_ne m ρ c main_arg5 (by decide)).trans (W6_arg5 m ρ c)
theorem W7_arg6 : W7 m ρ c (Proc.devRef .tc main_arg6) = a6 m c :=
  (W7_of_ne m ρ c main_arg6 (by decide)).trans (W6_arg6 m ρ c)
theorem W7_arg7 : W7 m ρ c (Proc.devRef .tc main_arg7) = a7 m c :=
  (W7_of_ne m ρ c main_arg7 (by decide)).trans (W6_arg7 m ρ c)

/-- The second layer before its clamp. -/
theorem W8_pre2 : W8 m ρ c (Proc.devRef .tc main_v63) = val_main_v90 (F := Ideal) (a0 m c) (a1 m c) (a2 m c) (a3 m c) (a4 m c) (a5 m c) := by
  have h48 := W7_h2 m ρ c
  have h5 := W7_rows m ρ c
  have h6 := W7_cols m ρ c
  have h30 := W7_coef m ρ c
  have h5' := W7_arg5 m ρ c
  dsimp only [W8]
  generalize W7 m ρ c = V at h48 h5 h6 h30 h5' ⊢
  dsimp only [hostOps2]; after_results_simp
  rw [h48, h5, h6, h30, h5']
  rfl

/-- The second layer's output. -/
theorem W9_x2 : W9 m ρ c (Proc.devRef .tc main_v64) = val_main_v91 (F := Ideal) (a0 m c) (a1 m c) (a2 m c) (a3 m c) (a4 m c) (a5 m c) := by
  dsimp only [W9]
  rw [relu2_reads, W8_pre2 m ρ c]
  rfl

/-- Reads, after the host operations between the last two products, a buffer they do not write. -/
macro "kept_before_last" : tactic =>
  `(tactic| (dsimp only [W10, W9, W8, hostOps2, hostOps2_1, hostOps2_2]; after_results_simp))

theorem W9_x1 : W9 m ρ c (Proc.devRef .tc main_v47) = val_main_v47 (F := Ideal) (a0 m c) (a1 m c) (a2 m c) (a3 m c) :=
  (by dsimp only [W9, W8, hostOps2, hostOps2_1]; after_results_simp :
    W9 m ρ c (Proc.devRef .tc main_v47) = W7 m ρ c (Proc.devRef .tc main_v47)).trans (W7_x1 m ρ c)

/-- The two layers' outputs side by side. -/
theorem W10_cat : W10 m ρ c (Proc.devRef .tc main_v65) = val_main_v92 (F := Ideal) (a0 m c) (a1 m c) (a2 m c) (a3 m c) (a4 m c) (a5 m c) := by
  have h47 := W9_x1 m ρ c
  have h64 := W9_x2 m ρ c
  dsimp only [W10]
  generalize W9 m ρ c = V at h47 h64 ⊢
  dsimp only [hostOps2_2]; after_results_simp
  rw [h47, h64]
  rfl

theorem W10_arg6 : W10 m ρ c (Proc.devRef .tc main_arg6) = a6 m c :=
  (by kept_before_last : W10 m ρ c (Proc.devRef .tc main_arg6) = W7 m ρ c (Proc.devRef .tc main_arg6)).trans (W7_arg6 m ρ c)
theorem W10_arg7 : W10 m ρ c (Proc.devRef .tc main_arg7) = a7 m c :=
  (by kept_before_last : W10 m ρ c (Proc.devRef .tc main_arg7) = W7 m ρ c (Proc.devRef .tc main_arg7)).trans (W7_arg7 m ρ c)

/-! ## The last product: the result -/

/-- The reference's last three stages are a product plus the bias row. -/
theorem ref_result (X : FVec Ideal ⟨2, ![50000, 256]⟩ .f32) (w : FVec Ideal ⟨2, ![256, 128]⟩ .f32)
    (b : FVec Ideal ⟨1, ![128]⟩ .f32) :
    addf (Host.dotGeneral Cert.ReferenceIdeal.dot_S50000x256_S256x128_S50000x128_1_0_0_1_n_n none X w)
        (val_main_v95 (F := Ideal) b)
      = Region2.productPlusRow (R := 50000) X w b := by
  funext i
  refine (ValueIdx.addf_apply _ _ i).trans ?_
  unfold Region2.productPlusRow
  refine congrArg₂ (· + ·) (dotGeneral_apply _ rfl none .single X w i) ?_
  rw [val_main_v95_apply, val_main_v94_apply]
  exact congrArg b (funext fun a => match a with | ⟨0, _⟩ => rfl)

/-- The result buffer after the run: the reference's result stage of the arguments. -/
theorem W11_result : W11 m ρ c (Proc.devRef .tc main_v66) = val_main_v96 (F := Ideal) (a0 m c) (a1 m c) (a2 m c) (a3 m c) (a4 m c) (a5 m c) (a6 m c) (a7 m c) := by
  refine (W11_arr m ρ c 3).trans ((Region2.result (V10 m ρ) c).trans ?_)
  rw [show V10 m ρ c main_v65 = val_main_v92 (F := Ideal) (a0 m c) (a1 m c) (a2 m c) (a3 m c) (a4 m c) (a5 m c) from W10_cat m ρ c,
    show V10 m ρ c main_arg6 = a6 m c from W10_arg6 m ρ c, show V10 m ρ c main_arg7 = a7 m c from W10_arg7 m ρ c]
  exact (ref_result _ _ _).symm

end Cert.KernelIdeal.Fold

end
-- ==== Proof.lean ====
/-
  A two-layer graph convolution followed by a dense layer, against its plain `jnp` reference.

  Both programs add a self loop to every node, count each node's degree d over the destination list, form the
  per-edge coefficient c(e) = d(source e)^(-1/2) · d(destination e)^(-1/2) (zero where a degree is not positive), and for
  each layer project the node features by the layer's weight matrix, gather the projected rows at the edges' sources,
  scale row e by c(e), sum the rows of the edges that end at each node, add the bias and clamp at zero; the result is
  the two layers' outputs side by side times the last weight matrix, plus the last bias.  They differ in one thing only:
  the program computes each of the three matrix products ten rows-blocks at a time inside a kernel region, after
  rounding the operands to bf16, where the reference calls one `dot_general`.  On the extended reals the rounding is the
  identity and a product taken block of rows by block of rows is the product, each entry being the same sum over the
  contracted index; every other operation is literally the reference's.  So the two results are equal entry by entry,
  and no hypothesis on the inputs is used for that.

  The three frames: the program's two are the generated ones; the reference's is its run with the result dropped.
  The idealization rewrote nothing, so there is nothing to preserve.
-/
import proofs.«167594_j48275432407773_1_alg».proof.Defs
import proofs.«167594_j48275432407773_1_alg».proof.Proof.Gen.Kernel
import proofs.«167594_j48275432407773_1_alg».proof.Proof.Gen.Kernel.Skeleton
import proofs.«167594_j48275432407773_1_alg».proof.Proof.Gen.Kernel.Launch
import proofs.«167594_j48275432407773_1_alg».proof.Proof.Gen.Kernel.Points
import proofs.«167594_j48275432407773_1_alg».proof.Proof.Gen.Kernel.Frame
import proofs.«167594_j48275432407773_1_alg».proof.Proof.Gen.KernelIdeal
import proofs.«167594_j48275432407773_1_alg».proof.Proof.Gen.KernelIdeal.Skeleton
import proofs.«167594_j48275432407773_1_alg».proof.Proof.Gen.KernelIdeal.Launch
import proofs.«167594_j48275432407773_1_alg».proof.Proof.Gen.KernelIdeal.Points
import proofs.«167594_j48275432407773_1_alg».proof.Proof.Gen.KernelIdeal.Frame
import proofs.«167594_j48275432407773_1_alg».proof.Proof.Gen.ReferenceIdeal
import proofs.«167594_j48275432407773_1_alg».proof.Proof.Gen.Pre_finite_inputs
import proofs.«167594_j48275432407773_1_alg».proof.Proof.RefRun
import proofs.«167594_j48275432407773_1_alg».proof.Proof.RefRead
import proofs.«167594_j48275432407773_1_alg».proof.Proof.RunNamed
import proofs.«167594_j48275432407773_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

open Cert.KernelIdeal Cert.KernelIdeal.Gen Cert.KernelIdeal.Fold in
/-- From memories that agree on the arguments both programs end with the reference's result stage of the arguments
    in their result buffers: the program's by following its buffers through the three product regions, the
    reference's by its own run. -/
theorem algebraic : Cert.algebraic_KernelIdeal_ReferenceIdeal := by
  intro m ρ m' ρ' _ hagree
  refine ⟨fun c => Cert.ReferenceIdeal.ReadP.val_main_v96 (F := Ideal) (a0 m c) (a1 m c) (a2 m c) (a3 m c) (a4 m c)
    (a5 m c) (a6 m c) (a7 m c), ?_, ?_⟩
  · refine (θ_run Cert.KernelIdeal.defs _ _).mono (fun r h c => ?_) (Cert.KernelIdeal.RunNamed.run_contents (F := Ideal) m ρ)
    exact ⟨(h c _ Cert.KernelIdeal.RunNamed.result_unscoped).trans (W11_result m ρ c),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.ReadP.val_main_v96_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
